-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384 : Shape := ⟨2, ![512, 16384]⟩
abbrev S1536x3 : Shape := ⟨2, ![1536, 3]⟩
abbrev S_ : Shape := ⟨0, ![]⟩

class Facts : Prop where
  bcast_S_S512x16384 : S_.BroadcastsInDim S512x16384 (![] : Fin 0 → Fin S512x16384.rank)
  reducesTo_S512x16384_S_d0_1 : S512x16384.ReducesTo [0, 1] S_
  h_S_ : 0 < S_.numel

variable [Facts]

def fn {F : FTy → Type} [FloatOps F] (main_arg0 : FVec F S512x16384 .f32) (main_arg1 : IVec S1536x3 32) : IVec S_ 1 :=
  let main_v0 : FVec F S512x16384 .f32 := Host.absf main_arg0
  let main_cst : FVec F S_ .f32 := constant S_ .f32 0x7F800000#32
  let main_v1 : FVec F S512x16384 .f32 := broadcastInDim S512x16384 ![] bcast_S_S512x16384 main_cst
  let main_v2 : IVec S512x16384 1 := cmpf .olt main_v0 main_v1
  let main_c : IVec S_ 1 := constantI S_ 1 1#1
  let main_v3 : IVec S_ 1 := (fun x v => Host.reduce IntOp.andi x v reducesTo_S512x16384_S_d0_1 h_S_) main_v2 main_c
  main_v3
-- ==== Kernel.lean ====
abbrev S512x16384 : Shape := ⟨2, ![512, 16384]⟩
abbrev S1536x3 : Shape := ⟨2, ![1536, 3]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S1536x1 : Shape := ⟨2, ![1536, 1]⟩
abbrev S1536 : Shape := ⟨1, ![1536]⟩
abbrev S_ : Shape := ⟨0, ![]⟩
abbrev S1536x2 : Shape := ⟨2, ![1536, 2]⟩
abbrev S1 : Shape := ⟨1, ![1]⟩

abbrev nBuf : Space → Nat
  | .hbm => 65
  | .vmem => 3
  | .smem => 0
  | _ => 0

abbrev bufTy : (tb : Table) → Fin (tcTables nBuf tb) → BufTy
  | .hbm, ⟨0, _⟩ => ⟨S512x16384, .f32⟩
  | .hbm, ⟨1, _⟩ => ⟨S1536x3, .i32⟩
  | .hbm, ⟨2, _⟩ => ⟨S512x512, .f32⟩
  | .hbm, ⟨3, _⟩ => ⟨S1536x1, .i32⟩
  | .hbm, ⟨4, _⟩ => ⟨S1536, .i32⟩
  | .hbm, ⟨5, _⟩ => ⟨S1536x1, .i32⟩
  | .hbm, ⟨6, _⟩ => ⟨S1536, .i32⟩
  | .hbm, ⟨7, _⟩ => ⟨S1536x1, .i32⟩
  | .hbm, ⟨8, _⟩ => ⟨S1536, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S_, .i32⟩
  | .hbm, ⟨13, _⟩ => ⟨S1536, .i32⟩
  | .hbm, ⟨14, _⟩ => ⟨S1536, .i32⟩
  | .hbm, ⟨15, _⟩ => ⟨S1536, .i32⟩
  | .hbm, ⟨16, _⟩ => ⟨S_, .i32⟩
  | .hbm, ⟨17, _⟩ => ⟨S1536, .i32⟩
  | .hbm, ⟨18, _⟩ => ⟨S1536, .i1⟩
  | .hbm, ⟨19, _⟩ => ⟨S_, .i32⟩
  | .hbm, ⟨20, _⟩ => ⟨S1536, .i32⟩
  | .hbm, ⟨21, _⟩ => ⟨S1536, .i32⟩
  | .hbm, ⟨22, _⟩ => ⟨S1536, .i32⟩
  | .hbm, ⟨23, _⟩ => ⟨S1536x1, .i32⟩
  | .hbm, ⟨24, _⟩ => ⟨S1536x1, .i32⟩
  | .hbm, ⟨25, _⟩ => ⟨S1536x2, .i32⟩
  | .hbm, ⟨26, _⟩ => ⟨S1536, .f32⟩
  | .hbm, ⟨27, _⟩ => ⟨S_, .i32⟩
  | .hbm, ⟨28, _⟩ => ⟨S1536, .i32⟩
  | .hbm, ⟨29, _⟩ => ⟨S1536, .i1⟩
  | .hbm, ⟨30, _⟩ => ⟨S_, .i32⟩
  | .hbm, ⟨31, _⟩ => ⟨S1536, .i32⟩
  | .hbm, ⟨32, _⟩ => ⟨S1536, .i32⟩
  | .hbm, ⟨33, _⟩ => ⟨S1536, .i32⟩
  | .hbm, ⟨34, _⟩ => ⟨S_, .i32⟩
  | .hbm, ⟨35, _⟩ => ⟨S1536, .i32⟩
  | .hbm, ⟨36, _⟩ => ⟨S1536, .i1⟩
  | .hbm, ⟨37, _⟩ => ⟨S_, .i32⟩
  | .hbm, ⟨38, _⟩ => ⟨S1536, .i32⟩
  | .hbm, ⟨39, _⟩ => ⟨S1536, .i32⟩
  | .hbm, ⟨40, _⟩ => ⟨S1536, .i32⟩
  | .hbm, ⟨41, _⟩ => ⟨S1536x1, .i32⟩
  | .hbm, ⟨42, _⟩ => ⟨S1536x1, .i32⟩
  | .hbm, ⟨43, _⟩ => ⟨S1536x2, .i32⟩
  | .hbm, ⟨44, _⟩ => ⟨S1536, .f32⟩
  | .hbm, ⟨45, _⟩ => ⟨S1536, .f32⟩
  | .hbm, ⟨46, _⟩ => ⟨S_, .f32⟩
  | .hbm, ⟨47, _⟩ => ⟨S1536, .f32⟩
  | .hbm, ⟨48, _⟩ => ⟨S1536, .f32⟩
  | .hbm, ⟨49, _⟩ => ⟨S1536, .f32⟩
  | .hbm, ⟨50, _⟩ => ⟨S1536, .f32⟩
  | .hbm, ⟨51, _⟩ => ⟨S1536, .i1⟩
  | .hbm, ⟨52, _⟩ => ⟨S1536, .f32⟩
  | .hbm, ⟨53, _⟩ => ⟨S1536, .f32⟩
  | .hbm, ⟨54, _⟩ => ⟨S1536, .f32⟩
  | .hbm, ⟨55, _⟩ => ⟨S1536, .f32⟩
  | .hbm, ⟨56, _⟩ => ⟨S1536, .f32⟩
  | .hbm, ⟨57, _⟩ => ⟨S1536, .f32⟩
  | .hbm, ⟨58, _⟩ => ⟨S1536, .f32⟩
  | .hbm, ⟨59, _⟩ => ⟨S1536, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  shapeCasts_S512x512_S512x512 : S512x512.ShapeCasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  slices_S1536x3_S1536x1_0_0 : S1536x3.Slices ![0, 0] S1536x1
  shapeCasts_S1536x1_S1536 : S1536x1.ShapeCasts S1536
  slices_S1536x3_S1536x1_0_1 : S1536x3.Slices ![0, 1] S1536x1
  slices_S1536x3_S1536x1_0_2 : S1536x3.Slices ![0, 2] S1536x1
  bcast_S_S1536 : S_.BroadcastsInDim S1536 (![] : Fin 0 → Fin S1536.rank)
  bcast_S1536_S1536x1_0 : S1536.BroadcastsInDim S1536x1 (![0] : Fin 1 → Fin S1536x1.rank)
  concatenates_S1536x1_S1536x1_S1536x2_d1 : Shape.Concatenates [S1536x1, S1536x1] S1536x2 1
  reducesTo_S1536_S_d0 : S1536.ReducesTo [0] S_
  h_S_ : 0 < S_.numel
  shapeCasts_S_S1 : S_.ShapeCasts S1
  dot_S512x2048_S512x2048_S512x512_1_1_0_0_n_n_wf : DotDims.WF S512x2048 S512x2048 S512x512 [1] [1] [0] [0] [] []
  gather_S512x512_S1536x2_S1536_n_01_n_n_01_1_11_wf : GatherDims.WF S512x512 S1536x2 S1536 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x16384.size a
  hwx0_0 : ∀ i : grid0.Coords, EltTy.bits .f32 = 32 ∨ (Rect.block (s := S512x16384) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def gather_S512x512_S1536x2_S1536_n_01_n_n_01_1_11 : GatherDims S512x512 S1536x2 S1536 where
  offsetDims := []
  collapsedSliceDims := [0, 1]
  operandBatchingDims := []
  startIndicesBatchingDims := []
  startIndexMap := [0, 1]
  indexVectorDim := 1
  sliceSizes := ![1, 1]
  wf := gather_S512x512_S1536x2_S1536_n_01_n_n_01_1_11_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x16384 : Shape := ⟨2, ![512, 16384]⟩
abbrev S1536x3 : Shape := ⟨2, ![1536, 3]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x512 : Shape := ⟨2, ![16384, 512]⟩
abbrev S1536x1 : Shape := ⟨2, ![1536, 1]⟩
abbrev S1536 : Shape := ⟨1, ![1536]⟩
abbrev S1536x2 : Shape := ⟨2, ![1536, 2]⟩
abbrev S1 : Shape := ⟨1, ![1]⟩

abbrev nBuf : Space → Nat
  | .hbm => 81
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S1536x3, .i32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S16384x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S1536x1, .i32⟩
  | .hbm, ⟨20, _⟩ => ⟨S1536, .i32⟩
  | .hbm, ⟨21, _⟩ => ⟨S1536x1, .i32⟩
  | .hbm, ⟨22, _⟩ => ⟨S1536, .i32⟩
  | .hbm, ⟨23, _⟩ => ⟨S1536x1, .i32⟩
  | .hbm, ⟨24, _⟩ => ⟨S1536, .i32⟩
  | .hbm, ⟨25, _⟩ => ⟨S_, .i32⟩
  | .hbm, ⟨26, _⟩ => ⟨S1536, .i32⟩
  | .hbm, ⟨27, _⟩ => ⟨S1536, .i1⟩
  | .hbm, ⟨28, _⟩ => ⟨S_, .i32⟩
  | .hbm, ⟨29, _⟩ => ⟨S1536, .i32⟩
  | .hbm, ⟨30, _⟩ => ⟨S1536, .i32⟩
  | .hbm, ⟨31, _⟩ => ⟨S1536, .i32⟩
  | .hbm, ⟨32, _⟩ => ⟨S_, .i32⟩
  | .hbm, ⟨33, _⟩ => ⟨S1536, .i32⟩
  | .hbm, ⟨34, _⟩ => ⟨S1536, .i1⟩
  | .hbm, ⟨35, _⟩ => ⟨S_, .i32⟩
  | .hbm, ⟨36, _⟩ => ⟨S1536, .i32⟩
  | .hbm, ⟨37, _⟩ => ⟨S1536, .i32⟩
  | .hbm, ⟨38, _⟩ => ⟨S1536, .i32⟩
  | .hbm, ⟨39, _⟩ => ⟨S1536x1, .i32⟩
  | .hbm, ⟨40, _⟩ => ⟨S1536x1, .i32⟩
  | .hbm, ⟨41, _⟩ => ⟨S1536x2, .i32⟩
  | .hbm, ⟨42, _⟩ => ⟨S1536, .f32⟩
  | .hbm, ⟨43, _⟩ => ⟨S_, .i32⟩
  | .hbm, ⟨44, _⟩ => ⟨S1536, .i32⟩
  | .hbm, ⟨45, _⟩ => ⟨S1536, .i1⟩
  | .hbm, ⟨46, _⟩ => ⟨S_, .i32⟩
  | .hbm, ⟨47, _⟩ => ⟨S1536, .i32⟩
  | .hbm, ⟨48, _⟩ => ⟨S1536, .i32⟩
  | .hbm, ⟨49, _⟩ => ⟨S1536, .i32⟩
  | .hbm, ⟨50, _⟩ => ⟨S_, .i32⟩
  | .hbm, ⟨51, _⟩ => ⟨S1536, .i32⟩
  | .hbm, ⟨52, _⟩ => ⟨S1536, .i1⟩
  | .hbm, ⟨53, _⟩ => ⟨S_, .i32⟩
  | .hbm, ⟨54, _⟩ => ⟨S1536, .i32⟩
  | .hbm, ⟨55, _⟩ => ⟨S1536, .i32⟩
  | .hbm, ⟨56, _⟩ => ⟨S1536, .i32⟩
  | .hbm, ⟨57, _⟩ => ⟨S1536x1, .i32⟩
  | .hbm, ⟨58, _⟩ => ⟨S1536x1, .i32⟩
  | .hbm, ⟨59, _⟩ => ⟨S1536x2, .i32⟩
  | .hbm, ⟨60, _⟩ => ⟨S1536, .f32⟩
  | .hbm, ⟨61, _⟩ => ⟨S1536, .f32⟩
  | .hbm, ⟨62, _⟩ => ⟨S_, .f32⟩
  | .hbm, ⟨63, _⟩ => ⟨S1536, .f32⟩
  | .hbm, ⟨64, _⟩ => ⟨S1536, .f32⟩
  | .hbm, ⟨65, _⟩ => ⟨S1536, .f32⟩
  | .hbm, ⟨66, _⟩ => ⟨S1536, .f32⟩
  | .hbm, ⟨67, _⟩ => ⟨S1536, .i1⟩
  | .hbm, ⟨68, _⟩ => ⟨S1536, .f32⟩
  | .hbm, ⟨69, _⟩ => ⟨S1536, .f32⟩
  | .hbm, ⟨70, _⟩ => ⟨S1536, .f32⟩
  | .hbm, ⟨71, _⟩ => ⟨S1536, .f32⟩
  | .hbm, ⟨72, _⟩ => ⟨S1536, .f32⟩
  | .hbm, ⟨73, _⟩ => ⟨S1536, .f32⟩
  | .hbm, ⟨74, _⟩ => ⟨S1536, .f32⟩
  | .hbm, ⟨75, _⟩ => ⟨S1536, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_c_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  reducesTo_S512x16384_S512_d1 : S512x16384.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x16384_S16384x512_1_0 : S512x16384.Transposes [1, 0] S16384x512
  bcast_S_S512x512 : S_.BroadcastsInDim S512x512 (![] : Fin 0 → Fin S512x512.rank)
  slices_S1536x3_S1536x1_0_0 : S1536x3.Slices ![0, 0] S1536x1
  shapeCasts_S1536x1_S1536 : S1536x1.ShapeCasts S1536
  slices_S1536x3_S1536x1_0_1 : S1536x3.Slices ![0, 1] S1536x1
  slices_S1536x3_S1536x1_0_2 : S1536x3.Slices ![0, 2] S1536x1
  bcast_S_S1536 : S_.BroadcastsInDim S1536 (![] : Fin 0 → Fin S1536.rank)
  bcast_S1536_S1536x1_0 : S1536.BroadcastsInDim S1536x1 (![0] : Fin 1 → Fin S1536x1.rank)
  concatenates_S1536x1_S1536x1_S1536x2_d1 : Shape.Concatenates [S1536x1, S1536x1] S1536x2 1
  reducesTo_S1536_S_d0 : S1536.ReducesTo [0] S_
  shapeCasts_S_S1 : S_.ShapeCasts S1
  dot_S512x16384_S16384x512_S512x512_1_0_0_1_n_n_wf : DotDims.WF S512x16384 S16384x512 S512x512 [1] [0] [0] [1] [] []
  gather_S512x512_S1536x2_S1536_n_01_n_n_01_1_11_wf : GatherDims.WF S512x512 S1536x2 S1536 [] [0, 1] [] [0, 1] [] 1 ![1, 1]

variable [Facts₀]

def dot_S512x16384_S16384x512_S512x512_1_0_0_1_n_n : DotDims S512x16384 S16384x512 S512x512 where
  lhsContracting := [1]
  rhsContracting := [0]
  lhsNonContracting := [0]
  rhsNonContracting := [1]
  lhsBatch := []
  rhsBatch := []
  wf := dot_S512x16384_S16384x512_S512x512_1_0_0_1_n_n_wf
def gather_S512x512_S1536x2_S1536_n_01_n_n_01_1_11 : GatherDims S512x512 S1536x2 S1536 where
  offsetDims := []
  collapsedSliceDims := [0, 1]
  operandBatchingDims := []
  startIndicesBatchingDims := []
  startIndexMap := [0, 1]
  indexVectorDim := 1
  sliceSizes := ![1, 1]
  wf := gather_S512x512_S1536x2_S1536_n_01_n_n_01_1_11_wf

class Facts : Prop extends Facts₀ where

variable [Facts]
-- ==== Proof.KerPieces.lean ====
/-
  What the kernel body leaves in the output block's staging buffer in each of its three control cases, as the
  stored values applied to what the body loaded:

    first tile   : the zero block is stored and read back, then the tile's step is applied to it;
    middle tiles : the tile's step is applied to the block the tile before left;
    last tile    : the tile's step, stored and read back, then the distance step applied to it.

  In every case the last store covers the whole block, so the buffer ends at that store's value, and every load
  reads a whole buffer.
-/
import proofs.«168195_j14800457302034_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- Middle tiles: the tile's step on the block the tile before left. -/
theorem out_B (c : Dev nD) (i : grid0.Coords) (a1 : Memref sig .tc .vmem S512x2048 .f32) (h1 : a1.IsWhole)
    (a2 : Memref sig .tc .vmem S512x512 .f32) (h2 : a2.IsWhole) (hc0 : ¬cond0_0 i) (hc1 : ¬cond0_1 i)
    (x : Vec F S512x2048 .f32) (xo : Vec F S512x512 .f32) :
    out0_B_1 c i a1 h1 a2 h2 hc0 hc1 x xo = k0_pay2 x xo := by
  unfold out0_B_1
  rw [View.read_writes_eq_canon _ _ _ (cover0_B_1 c i a1 h1 a2 h2 hc0 hc1 x xo)]
  unfold kernelRun0_B
  dsimp only
  sl_unfold_words
  rw [View.canon_unit_zero hz]
  simp only [View.readAt_eq_ld, h1.read_unread, h2.read_unread, View.ld_unit_zero (S := S512x2048) hz,
    View.ld_unit_zero (S := S512x512) hz]

/-- First tile: the zero block is stored and read back, and the tile's step applied to it. -/
theorem out_A (c : Dev nD) (i : grid0.Coords) (a1 : Memref sig .tc .vmem S512x2048 .f32) (h1 : a1.IsWhole)
    (a2 : Memref sig .tc .vmem S512x512 .f32) (h2 : a2.IsWhole) (hc0 : cond0_0 i) (hc1 : ¬cond0_1 i)
    (x : Vec F S512x2048 .f32) :
    out0_A_1 c i a1 h1 a2 h2 hc0 hc1 x = k0_pay2 x (k0_pay1 (F := F)) := by
  unfold out0_A_1
  rw [View.read_writes_eq_canon _ _ _ (cover0_A_1 c i a1 h1 a2 h2 hc0 hc1 x)]
  unfold kernelRun0_A
  dsimp only
  sl_unfold_words
  rw [View.canon_cons_unit_zero (S := S512x512) hz, View.readCov_unit_zero (S := S512x512) _ hz]
  simp only [View.readAt_eq_ld, h1.read_unread, View.ld_unit_zero (S := S512x2048) hz]

/-- Last tile: the tile's step is stored and read back, and the distance step applied to it. -/
theorem out_C (c : Dev nD) (i : grid0.Coords) (a1 : Memref sig .tc .vmem S512x2048 .f32) (h1 : a1.IsWhole)
    (a2 : Memref sig .tc .vmem S512x512 .f32) (h2 : a2.IsWhole) (hc0 : ¬cond0_0 i) (hc1 : cond0_1 i)
    (x : Vec F S512x2048 .f32) (xo : Vec F S512x512 .f32) :
    out0_C_1 c i a1 h1 a2 h2 hc0 hc1 x xo = k0_pay3 (k0_pay2 x xo) := by
  unfold out0_C_1
  rw [View.read_writes_eq_canon _ _ _ (cover0_C_1 c i a1 h1 a2 h2 hc0 hc1 x xo)]
  unfold kernelRun0_C
  dsimp only
  sl_unfold_words
  rw [View.canon_cons_unit_zero (S := S512x512) hz, View.readCov_unit_zero (S := S512x512) _ hz]
  simp only [View.readAt_eq_ld, h1.read_unread, h2.read_unread, View.ld_unit_zero (S := S512x2048) hz,
    View.ld_unit_zero (S := S512x512) hz]

end Cert.KernelIdeal.Pieces

end
-- ==== Proof.DistSpec.lean ====
/-
  The squared-distance matrix both programs compute, as one function of the feature array, and the two
  facts about finite sums that join the kernel's way of computing it to the reference's.

  For a feature array `x` of 512 rows and 16384 columns, `gram x i j` is the inner product of rows `i` and `j`, and
  `dist x` at `(i, j)` is `max ((‖xᵢ‖² + ‖xⱼ‖²) - 2·⟨xᵢ, xⱼ⟩) 0` with `‖xᵢ‖² = gram x i i`.

  The kernel reaches the inner products tile by tile: eight tiles of 2048 columns, each tile's partial product added
  to a running matrix. On the extended reals addition is commutative and associative with no finiteness
  assumption, so the running matrix after tile `n` is the partial sum over the first `2048·(n+1)` columns
  (`term` is a column's product as a function of a natural, so that partial sums are sums over `Finset.range`).
  The kernel reads the squared norms off the diagonal of the finished matrix by summing a row (or a column) masked
  by the diagonal indicator: a sum with one surviving term.
-/
import Idealize.ShloMosaic.PureOps.Ideal
import Idealize.ShloMosaic.PureOps.Ideal.Laws
import Idealize.ShloMosaic.Lib.ValueIdx

noncomputable section

namespace Cert.DistSpec

open Idealize.ShloMosaic Idealize.ShloMosaic.ValueIdx

/-- The feature array's shape, the distance matrix's, and one tile of 2048 columns. -/
abbrev SX : Shape := ⟨2, ![512, 16384]⟩
abbrev SD : Shape := ⟨2, ![512, 512]⟩
abbrev ST : Shape := ⟨2, ![512, 2048]⟩

/-- The inner product of rows `i` and `j` of `x`. -/
def gram (x : SX.Idx → EReal) (i j : Fin 512) : EReal := ∑ k : Fin 16384, x (ix2 i k) * x (ix2 j k)

/-- The squared distance of rows `p 0` and `p 1`, clamped below at zero: the words `2.0` and `0.0` are kept as the
    programs print them. -/
def dist (x : SX.Idx → EReal) : SD.Idx → EReal := fun p =>
  max ((gram x (p 0) (p 0) + gram x (p 1) (p 1)) - Ideal.ofBits .f32 0x40000000#32 * gram x (p 0) (p 1))
    (Ideal.ofBits .f32 0x00000000#32)

/-- Column `k`'s product in the inner product of rows `i` and `j`, as a function of a natural (zero past the last column). -/
def term (x : SX.Idx → EReal) (i j : Fin 512) (k : ℕ) : EReal :=
  if h : k < 16384 then x (ix2 i ⟨k, h⟩) * x (ix2 j ⟨k, h⟩) else 0

/-- The inner product is the sum of the column products over all 16384 columns. -/
theorem gram_eq_range (x : SX.Idx → EReal) (i j : Fin 512) :
    gram x i j = ∑ k ∈ Finset.range 16384, term x i j k := by
  unfold gram
  rw [← Fin.sum_univ_eq_sum_range (fun k => term x i j k) 16384]
  refine Finset.sum_congr rfl fun k _ => ?_
  unfold term
  rw [dif_pos k.isLt]

/-- A tile's partial inner product: when `X` is tile `t` of `x` (its column `kk` is column `2048·t + kk` of `x`), the
    product of rows `i` and `j` of `X` is the sum of the column products over that tile's 2048 columns. -/
theorem tile_sum (x : SX.Idx → EReal) (i j : Fin 512) (t : ℕ) (ht : t < 8) (X : ST.Idx → EReal)
    (hX : ∀ (r : Fin 512) (kk : Fin 2048), X (ix2 r kk) = x (ix2 r ⟨2048 * t + kk.val, by have := kk.isLt; omega⟩)) :
    ∑ kk : Fin 2048, X (ix2 i kk) * X (ix2 j kk) = ∑ kk ∈ Finset.range 2048, term x i j (2048 * t + kk) := by
  rw [← Fin.sum_univ_eq_sum_range (fun kk => term x i j (2048 * t + kk)) 2048]
  refine Finset.sum_congr rfl fun kk _ => ?_
  have hk : 2048 * t + kk.val < 16384 := by have := kk.isLt; omega
  rw [hX, hX]
  unfold term
  rw [dif_pos hk]

/-- The partial sums over whole tiles: the first `n + 1` tiles are the first `n` tiles and then tile `n`. -/
theorem range_tiles_succ (f : ℕ → EReal) (n : ℕ) :
    ∑ k ∈ Finset.range (2048 * (n + 1)), f k
      = ∑ k ∈ Finset.range (2048 * n), f k + ∑ kk ∈ Finset.range 2048, f (2048 * n + kk) := by
  rw [Nat.mul_succ, Finset.sum_range_add]

/-- A row masked by the diagonal indicator sums to its diagonal entry. -/
theorem sum_row_diag (a : Fin 512 → Fin 512 → EReal) (i : Fin 512) :
    ∑ j : Fin 512, (if i.val = j.val then a i j else 0) = a i i := by
  simp only [Fin.val_inj]
  rw [Finset.sum_ite_eq Finset.univ i (a i), if_pos (Finset.mem_univ i)]

/-- A column masked by the diagonal indicator sums to its diagonal entry. -/
theorem sum_col_diag (a : Fin 512 → Fin 512 → EReal) (j : Fin 512) :
    ∑ i : Fin 512, (if i.val = j.val then a i j else 0) = a j j := by
  simp only [Fin.val_inj]
  rw [Finset.sum_ite_eq' Finset.univ j (fun i => a i j), if_pos (Finset.mem_univ j)]

end Cert.DistSpec

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.LibKerWords.lean ====
/-
  Words at a cell: comparisons of small naturals read as 32-bit words, the conjunction and the selection on a
  decided bit, and a bit or the zero word as a float.
-/
import Idealize.ShloMosaic.PureOps.Ideal
import Idealize.ShloMosaic.Lib.ValueIdx
import Idealize.ShloMosaic.Lib.ValueLayout
import Idealize.ShloMosaic.Lib.IdealHost

noncomputable section

namespace Cert.KernelIdeal.HostValue

open Idealize.ShloMosaic Idealize.ShloMosaic.ValueIdx

/-- Equality of two small naturals read as 32-bit words. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e
      simp only [BitVec.toNat_ofNat] at this
      rwa [Nat.mod_eq_of_lt hn, Nat.mod_eq_of_lt hk] at this)
    rw [if_neg h, beq_eq_false_iff_ne.mpr this]; rfl

theorem cmpi_ne_ofNat (x y : BitVec 32) :
    IntOp.cmpi .ne x y = if x ≠ y then 1#1 else 0#1 := by
  unfold IntOp.cmpi
  by_cases h : x = y
  · subst h; simp
  · rw [if_pos h, bne_iff_ne.mpr h]; rfl

/-- Signed "at least" of two naturals below 2^31 read as words. -/
theorem cmpi_sge_ofNat (n k : ℕ) (hn : n < 2 ^ 31) (hk : k < 2 ^ 31) :
    IntOp.cmpi .sge (BitVec.ofNat 32 n) (BitVec.ofNat 32 k) = if k ≤ n then 1#1 else 0#1 := by
  unfold IntOp.cmpi
  have e : (BitVec.ofNat 32 k).sle (BitVec.ofNat 32 n) = decide (k ≤ n) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.sle, h1, h2]; simp
  simp only [e]
  by_cases h : k ≤ n <;> simp [h]

theorem andi_bit (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem uitofp_bit (p : Prop) [Decidable p] :
    FloatOps.uitofp (F := Ideal) .f32 (if p then 1#1 else 0#1) = if p then (1 : EReal) else 0 := by
  by_cases hp : p
  · rw [if_pos hp, if_pos hp]; show ((BitVec.toNat (1#1) : ℝ) : EReal) = 1; simp
  · rw [if_neg hp, if_neg hp]; show ((BitVec.toNat (0#1) : ℝ) : EReal) = 0; simp

theorem sitofp_zero : FloatOps.sitofp (F := Ideal) .f32 (0#32) = (0 : EReal) := by
  show ((BitVec.toInt (0#32) : ℝ) : EReal) = 0; simp

end Cert.KernelIdeal.HostValue
end
-- ==== Proof.KerPayload.lean ====
/-
  The three values the kernel body stores, read at one entry of the 512 × 512 block, on the extended reals.

  * the value stored at the first tile is the zero block;
  * the value stored at every tile is the running matrix plus this tile's partial inner products: at `(i, j)` the
    block read before plus the sum over the tile's 2048 columns of the products of rows `i` and `j` of the tile (the
    rounding to sixteen bits on the way into the product is the identity on the extended reals, and a product taken
    into the zero matrix is the bare sum);
  * the value stored at the last tile turns the finished matrix `a` of inner products into squared distances:
    `max ((a i i + a j j) - 2 · a i j) 0`. The diagonal entries come from the matrix masked by the indicator of
    `row = column` and summed along a row (for `a i i`) or along a column (for `a j j`): one term of each sum survives.
-/
import proofs.«168195_j14800457302034_1_alg».proof.Proof.Gen.KernelIdeal.Skeleton
import proofs.«168195_j14800457302034_1_alg».proof.Proof.DistSpec
import proofs.«168195_j14800457302034_1_alg».proof.Proof.LibKeepdims
import proofs.«168195_j14800457302034_1_alg».proof.Proof.LibKerWords
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.KernelIdeal.HostValue (cmpi_eq_ofNat select_bit)

/-- The block stored at the first tile is zero at every entry. -/
theorem pay1_apply (p : S512x512.Idx) : k0_pay1 (F := Ideal) p = 0 := by
  show Ideal.ofBits .f32 0x00000000#32 = 0
  exact Ideal.ofBits_zero_f32

/-! ## A tile's product of the block with its own transpose -/

theorem lhs_row (p : S512x512.Idx) (q : dot_S512x2048_S512x2048_S512x512_1_1_0_0_n_n.contr.Idx) :
    (dot_S512x2048_S512x2048_S512x512_1_1_0_0_n_n.lhsIdx p q 0).val = (p 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl

theorem lhs_col (p : S512x512.Idx) (q : dot_S512x2048_S512x2048_S512x512_1_1_0_0_n_n.contr.Idx) :
    (dot_S512x2048_S512x2048_S512x512_1_1_0_0_n_n.lhsIdx p q 1).val = (q ⟨0, by decide⟩).val :=
  dot_S512x2048_S512x2048_S512x512_1_1_0_0_n_n.lhsIdx_val_of_single rfl p q

theorem rhs_row (p : S512x512.Idx) (q : dot_S512x2048_S512x2048_S512x512_1_1_0_0_n_n.contr.Idx) :
    (dot_S512x2048_S512x2048_S512x512_1_1_0_0_n_n.rhsIdx p q 0).val = (p 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl

theorem rhs_col (p : S512x512.Idx) (q : dot_S512x2048_S512x2048_S512x512_1_1_0_0_n_n.contr.Idx) :
    (dot_S512x2048_S512x2048_S512x512_1_1_0_0_n_n.rhsIdx p q 1).val = (q ⟨0, by decide⟩).val :=
  dot_S512x2048_S512x2048_S512x512_1_1_0_0_n_n.rhsIdx_val_of_single rfl p q

/-- The product of a tile with its own transpose, taken into the zero matrix: at `(i, j)` the sum over the tile's
    columns of the products of rows `i` and `j`. -/
theorem selfProduct_apply (X : FVec Ideal S512x2048 .bf16) (i j : Fin 512) :
    FloatOps.matmul dot_S512x2048_S512x2048_S512x512_1_1_0_0_n_n none X X (constant S512x512 .f32 0x00000000#32) (ix2 i j)
      = ∑ kk : Fin 2048, X (ix2 i kk) * X (ix2 j kk) := by
  rw [Ideal.matmul_constant_zero_apply,
    ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 i j)
      ((ValueIdx.contrEquiv1 dot_S512x2048_S512x2048_S512x512_1_1_0_0_n_n 2048 rfl rfl).symm k) = ix2 i k :=
    funext fun a => Fin.ext (by
      match a with
      | ⟨0, _⟩ => exact lhs_row _ _
      | ⟨1, _⟩ => exact (lhs_col _ _).trans hk)
  have er : dot_S512x2048_S512x2048_S512x512_1_1_0_0_n_n.rhsIdx (ix2 i j)
      ((ValueIdx.contrEquiv1 dot_S512x2048_S512x2048_S512x512_1_1_0_0_n_n 2048 rfl rfl).symm k) = ix2 j k :=
    funext fun a => Fin.ext (by
      match a with
      | ⟨0, _⟩ => exact rhs_row _ _
      | ⟨1, _⟩ => exact (rhs_col _ _).trans hk)
  rw [el, er]

/-- The value stored at every tile: the block read before plus the tile's partial inner products. -/
theorem pay2_apply (X : Vec Ideal S512x2048 .f32) (A : Vec Ideal S512x512 .f32) (i j : Fin 512) :
    k0_pay2 (F := Ideal) X A (ix2 i j) = A (ix2 i j) + ∑ kk : Fin 2048, X (ix2 i kk) * X (ix2 j kk) := by
  unfold k0_pay2
  refine (addf_apply _ _ (ix2 i j)).trans ?_
  refine congrArg₂ (· + ·) (congrFun (shapeCast_self A shapeCasts_S512x512_S512x512) (ix2 i j)) ?_
  exact selfProduct_apply (truncf .bf16 X bitsLt_bf16_f32) i j

/-! ## The last tile: inner products to squared distances -/

/-- The finished matrix masked by the indicator of the diagonal. -/
def masked (A : Vec Ideal S512x512 .f32) : FVec Ideal S512x512 .f32 :=
  select (cmpi .eq (iota .tc S512x512 32 [0] iota_S512x512_d0_w32) (iota .tc S512x512 32 [1] iota_S512x512_d1_w32))
    (shapeCast S512x512 A shapeCasts_S512x512_S512x512) (broadcast S512x512 (Scalar.ofBits .f32 0x00000000#32))

theorem masked_apply (A : Vec Ideal S512x512 .f32) (r s : Fin 512) :
    masked A (ix2 r s) = if r.val = s.val then A (ix2 r s) else 0 := by
  unfold masked
  refine (select_apply _ _ _ (ix2 r s)).trans ?_
  rw [shapeCast_self]
  show Scalar.select (IntOp.cmpi .eq (iota .tc S512x512 32 [0] iota_S512x512_d0_w32 (ix2 r s))
    (iota .tc S512x512 32 [1] iota_S512x512_d1_w32 (ix2 r s))) (A (ix2 r s)) (Ideal.ofBits .f32 0x00000000#32) = _
  rw [iota_single_apply, iota_single_apply, Ideal.ofBits_zero_f32]
  show Scalar.select (IntOp.cmpi .eq (BitVec.ofNat 32 r.val) (BitVec.ofNat 32 s.val)) (A (ix2 r s)) 0 = _
  rw [cmpi_eq_ofNat r.val s.val (by have := r.isLt; omega) (by have := s.isLt; omega), select_bit]

/-- A row of the masked matrix sums to the row's diagonal entry. -/
theorem rowSum_apply (A : Vec Ideal S512x512 .f32) (hφ : FKind.Formats .f32)
    (hacc : (0x00000000#32 : BitVec 32) = FKind.add.neutral .f32 hφ) (r : Fin 512) :
    multiReduction .add [1] S512 (masked A) 0x00000000#32 reduces_S512x512_S512 hφ hacc (ix1 r) = A (ix2 r r) := by
  refine (Ideal.multiReduction_add_single (masked A) 0x00000000#32 reduces_S512x512_S512 hφ hacc (ix1 r)).trans ?_
  have e : ∀ k : Fin 512, masked A (reduces_S512x512_S512.lift (ix1 r) k) = if r.val = k.val then A (ix2 r k) else 0 :=
    fun k => (congrArg (masked A) (funext fun a => Fin.ext (by
      match a with
      | ⟨0, _⟩ => rfl
      | ⟨1, _⟩ => rfl) : reduces_S512x512_S512.lift (ix1 r) k = ix2 r k)).trans (masked_apply A r k)
  exact (Finset.sum_congr rfl fun k _ => e k).trans (Cert.DistSpec.sum_row_diag (fun a b => A (ix2 a b)) r)

/-- A column of the masked matrix sums to the column's diagonal entry. -/
theorem colSum_apply (A : Vec Ideal S512x512 .f32) (hφ : FKind.Formats .f32)
    (hacc : (0x00000000#32 : BitVec 32) = FKind.add.neutral .f32 hφ) (s : Fin 512) :
    multiReduction .add [0] S512 (masked A) 0x00000000#32 reduces_S512x512_S512_2 hφ hacc (ix1 s) = A (ix2 s s) := by
  refine (Ideal.multiReduction_add_single (masked A) 0x00000000#32 reduces_S512x512_S512_2 hφ hacc (ix1 s)).trans ?_
  have e : ∀ k : Fin 512, masked A (reduces_S512x512_S512_2.lift (ix1 s) k) = if k.val = s.val then A (ix2 k s) else 0 :=
    fun k => (congrArg (masked A) (funext fun a => Fin.ext (by
      match a with
      | ⟨0, _⟩ => rfl
      | ⟨1, _⟩ => rfl) : reduces_S512x512_S512_2.lift (ix1 s) k = ix2 k s)).trans (masked_apply A k s)
  exact (Finset.sum_congr rfl fun k _ => e k).trans (Cert.DistSpec.sum_col_diag (fun a b => A (ix2 a b)) s)

/-- The value stored at the last tile: squared distances from the finished matrix of inner products. -/
theorem pay3_apply (A : Vec Ideal S512x512 .f32) (i j : Fin 512) :
    k0_pay3 (F := Ideal) A (ix2 i j)
      = max ((A (ix2 i i) + A (ix2 j j)) - Ideal.ofBits .f32 0x40000000#32 * A (ix2 i j)) (Ideal.ofBits .f32 0x00000000#32) := by
  unfold k0_pay3
  refine (maximumf_apply _ _ (ix2 i j)).trans ?_
  refine congrArg₂ max ?_ rfl
  refine (subf_apply _ _ (ix2 i j)).trans ?_
  refine congrArg₂ (· - ·) ?_ ?_
  · refine (addf_apply _ _ (ix2 i j)).trans ?_
    refine congrArg₂ (· + ·) ?_ ?_
    · refine (broadcastTo_a1_ab_apply _ broadcasts_S512x1_S512x512 i j).trans ?_
      refine (shapeCast_a_a1_apply _ shapeCasts_S512_S512x1 i (0 : Fin 1)).trans ?_
      exact rowSum_apply A _ _ i
    · refine (broadcastTo_1b_ab_apply _ broadcasts_S1x512_S512x512 i j).trans ?_
      refine (shapeCast_a_1a_apply _ shapeCasts_S512_S1x512 (0 : Fin 1) j).trans ?_
      exact colSum_apply A _ _ j
  · refine (mulf_apply _ _ (ix2 i j)).trans ?_
    exact congrArg₂ (· * ·) rfl (congrFun (shapeCast_self A shapeCasts_S512x512_S512x512) (ix2 i j))

end Cert.KernelIdeal.Payload

end
-- ==== Proof.KerAccum.lean ====
/-
  The output block after each of the eight tiles, on the extended reals.

  The tile staged at point `t` is columns `2048·t … 2048·t + 2047` of the feature array. After each of the first seven
  tiles the block holds the inner products restricted to the columns seen so far (by induction on the tile: the zero
  block plus the first tile's products, then one tile's products more each time); the eighth tile completes the inner
  products and the distance step turns them into the squared-distance matrix.
-/
import proofs.«168195_j14800457302034_1_alg».proof.Proof.KerPieces
import proofs.«168195_j14800457302034_1_alg».proof.Proof.KerPayload
import proofs.«168195_j14800457302034_1_alg».proof.Proof.DistSpec

noncomputable section

namespace Cert.KernelIdeal.Accum

open Cert.KernelIdeal Cert.KernelIdeal.Gen Idealize.ShloMosaic Idealize.ShloMosaic.TcCoe Idealize.SL.Sem
open Idealize.ShloMosaic.ValueIdx
open Cert.KernelIdeal.Pieces Cert.KernelIdeal.Payload Cert.DistSpec

variable (m : (ℓ : Loc nD τ sig) → Buf (Elt Ideal) ℓ)

/-- The feature array as the region finds it. -/
abbrev feat (c : Dev nD) : SX.Idx → EReal := V m c main_arg0

/-- The input window's block index at point `t`: row block 0, column block `t`. -/
theorem index_in : ∀ t : Fin cfg0.N, win0_0.index t 0 = 0 ∧ win0_0.index t 1 = t.val :=
  (by decide +kernel : ∀ t : Fin grid0.N, win0_0.index t 0 = 0 ∧ win0_0.index t 1 = t.val)

/-- The tile staged at point `t`, read at `(r, kk)`, is the feature array at `(r, 2048·t + kk)`. -/
theorem tile_apply (c : Dev nD) (t : Fin cfg0.N) (r : Fin 512) (kk : Fin 2048)
    (hk : 2048 * t.val + kk.val < 16384) :
    (iblk m c 0 t : Vec Ideal S512x2048 .f32) (ix2 r kk) = feat m c (ix2 r ⟨2048 * t.val + kk.val, hk⟩) := by
  have hi := index_in t
  unfold iblk
  rw [View.read_apply]
  show V m c main_arg0 _ = V m c main_arg0 _
  refine congrArg (V m c main_arg0) (funext fun a => Fin.ext ?_)
  match a with
  | ⟨0, _⟩ => show win0_0.index t 0 * 512 + 1 * r.val = r.val; rw [hi.1]; omega
  | ⟨1, _⟩ => show win0_0.index t 1 * 2048 + 1 * kk.val = 2048 * t.val + kk.val; rw [hi.2]; omega

/-- So the tile's partial inner products are the column products over the tile's columns. -/
theorem tile_products (c : Dev nD) (t : Fin cfg0.N) (i j : Fin 512) (X : Vec Ideal S512x2048 .f32) (hX : X = iblk m c 0 t) :
    ∑ kk : Fin 2048, X (ix2 i kk) * X (ix2 j kk) = ∑ kk ∈ Finset.range 2048, term (feat m c) i j (2048 * t.val + kk) := by
  subst hX
  have hN : t.val < 8 := lt_of_lt_of_eq t.isLt (show cfg0.N = 8 from N_0)
  exact tile_sum (feat m c) i j t.val hN _ fun r kk => tile_apply m c t r kk (by have := kk.isLt; omega)

/-- After each of the first seven tiles the block holds the inner products over the columns seen so far. -/
theorem partial_eq (c : Dev nD) : ∀ (n : ℕ) (h : n < cfg0.N), n < 7 → ∀ i j : Fin 512,
    outsAt0 m c n h (ix2 i j) = ∑ k ∈ Finset.range (2048 * (n + 1)), term (feat m c) i j k
  | 0, h, _, i, j => by
    have e0 : ∑ k ∈ Finset.range (2048 * 0), term (feat m c) i j k = 0 := by
      rw [Nat.mul_zero, Finset.range_zero, Finset.sum_empty]
    rw [outsAt0_A m c ⟨0, h⟩ rfl (show ¬(0 % 8 = 7) by decide), out_A, pay2_apply, pay1_apply, zero_add,
      range_tiles_succ (term (feat m c) i j) 0, e0, zero_add]
    exact tile_products m c ⟨0, h⟩ i j _ rfl
  | n + 1, h, h7, i, j => by
    have h0 : ¬(n + 1) % 8 = 0 := by omega
    have h1 : ¬(n + 1) % 8 = 7 := by omega
    rw [outsAt0_B m c ⟨n + 1, h⟩ h0 h1, out_B, pay2_apply, range_tiles_succ (term (feat m c) i j) (n + 1)]
    exact congrArg₂ (· + ·) (partial_eq c n (Nat.lt_of_succ_lt h) (by omega) i j) (tile_products m c ⟨n + 1, h⟩ i j _ rfl)

/-- The eighth tile completes the inner products. -/
theorem full_eq (c : Dev nD) (h7 : 7 < cfg0.N) (i j : Fin 512) :
    k0_pay2 (F := Ideal) (iblk m c 0 ⟨7, h7⟩) (outsAt0 m c 6 (Nat.lt_of_succ_lt h7)) (ix2 i j) = gram (feat m c) i j := by
  have hg : gram (feat m c) i j = ∑ k ∈ Finset.range (2048 * (7 + 1)), term (feat m c) i j k := gram_eq_range _ i j
  rw [pay2_apply, hg, range_tiles_succ (term (feat m c) i j) 7]
  exact congrArg₂ (· + ·) (partial_eq m c 6 (Nat.lt_of_succ_lt h7) (by decide) i j) (tile_products m c ⟨7, h7⟩ i j _ rfl)

/-- After the last tile the block holds the squared-distance matrix. -/
theorem last_eq (c : Dev nD) (h7 : 7 < cfg0.N) : outsAt0 m c 7 h7 = dist (feat m c) := by
  funext p
  obtain ⟨i, j, rfl⟩ : ∃ (i : Fin 512) (j : Fin 512), p = ix2 i j := ⟨p 0, p 1, eq_ix2 p⟩
  rw [outsAt0_C m c ⟨7, h7⟩ (show ¬(7 % 8 = 0) by decide) rfl, out_C, pay3_apply]
  exact congrArg₂ max
    (congrArg₂ (· - ·) (congrArg₂ (· + ·) (full_eq m c h7 i i) (full_eq m c h7 j j))
      (congrArg₂ (· * ·) rfl (full_eq m c h7 i j))) rfl

end Cert.KernelIdeal.Accum

end
-- ==== Proof.KerArray.lean ====
/-
  From the output block to the result array. The output window has one block, the whole 512 × 512 array, and is
  written back once, after the last tile; so the array ends holding what the last tile left: the squared-distance
  matrix of the feature array.
-/
import proofs.«168195_j14800457302034_1_alg».proof.Proof.KerAccum
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.Pipeline (Dat)
open Cert.KernelIdeal.Accum Cert.DistSpec

variable (m : (ℓ : Loc nD τ sig) → Buf (Elt Ideal) ℓ)

/-- The squared-distance matrix of the feature array, as contents of the result array. -/
abbrev result (c : Dev nD) : Buf (Elt Ideal) ((c : Thread nD τ).loc main_v0) := dist (feat m c)

/-- The one write-back, after the last tile, writes it: block (0, 0) of the array read at zero offsets is the array. -/
theorem flushed_eq (c : Dev nD) (t : Fin cfg0.N) (hf : (cfg0.win 1).flush t = true) :
    (dats m 0 c).flushed 1 t = ((cfg0.win 1).blk t).view.read (Elt Ideal) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  have hl : outsAt0 m c t0_7.val t0_7.isLt = result m c := last_eq m c t0_7.isLt
  rw [hl]
  have hz' : (fun a => win0_1.index t0_7 a * main_v0.ty.shape.size a) = fun _ => 0 := funext fun a => by fin_cases a <;> decide
  exact (Memref.read_access_unit_zero (Elt Ideal) main_v0 hz' (fun a => by rw [congrFun hz' a]; simp) (result m c)).symm

/-- So the result array ends holding the squared-distance matrix (the last point's block covers it). -/
theorem final_o (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_v0).slice (win0_1.rect t0_7)).set
      rw [View.set_slice_whole, Rect.mem_set_unit]
      intro a
      have h0 : (i 0 : Nat) < 512 := (i 0).isLt
      have h1 : (i 1 : Nat) < 512 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 512 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 512 from by decide +kernel]; omega⟩

end Cert.KernelIdeal.Arr

end
-- ==== Proof.TailSpec.lean ====
/-
  What both programs do with the squared-distance matrix, as ONE function of the matrix and the triplet array.

  From the triplet array's three columns (anchor, positive, negative; a negative index is counted from the end of an
  axis of 512) the programs gather `D[anchor, positive]` and `D[anchor, negative]`, take the difference, apply the
  softplus `log (1 + exp z)` in the stable form `max z 0 + log1p (exp (-|z|))`, and average over the 1536 triplets.
  None of this is opened: the two programs agree on the matrix `D`, and the rest is this one function of it.
  (The index pairs are the reference's own stages, functions of the triplet array alone.)
-/
import proofs.«168195_j14800457302034_1_alg».proof.Proof.Gen.ReferenceIdeal.Read

noncomputable section

namespace Cert.ReferenceIdeal.TailSpec

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The softplus of every entry of a vector of 1536 differences. -/
def softplus (z : (⟨S1536, .f32⟩ : BufTy).Contents (Elt F)) : (⟨S1536, .f32⟩ : BufTy).Contents (Elt F) :=
  select
    (cmpf .une (subf z (broadcastInDim S1536 ![] bcast_S_S1536 (constant (F := F) S_ .f32 0x00000000#32)))
      (subf z (broadcastInDim S1536 ![] bcast_S_S1536 (constant (F := F) S_ .f32 0x00000000#32))))
    (addf z (broadcastInDim S1536 ![] bcast_S_S1536 (constant (F := F) S_ .f32 0x00000000#32)))
    (addf (maximumf z (broadcastInDim S1536 ![] bcast_S_S1536 (constant (F := F) S_ .f32 0x00000000#32)))
      (Host.log1p (Host.exp (Host.negf (Host.absf
        (subf z (broadcastInDim S1536 ![] bcast_S_S1536 (constant (F := F) S_ .f32 0x00000000#32))))))))

/-- The mean triplet loss from a 512 × 512 matrix `D` and the triplet array `x1`. -/
def tail (D : (⟨S512x512, .f32⟩ : BufTy).Contents (Elt F)) (x1 : (⟨S1536x3, .i32⟩ : BufTy).Contents (Elt F)) :
    (⟨S1, .f32⟩ : BufTy).Contents (Elt F) :=
  shapeCast _
    (Host.divf
      (Host.reduceAdd
        (softplus (subf (Host.gather gather_S512x512_S1536x2_S1536_n_01_n_n_01_1_11 D (val_main_v32 (F := F) x1))
          (Host.gather gather_S512x512_S1536x2_S1536_n_01_n_n_01_1_11 D (val_main_v46 (F := F) x1))))
        (constant (F := F) S_ .f32 0x00000000#32) reducesTo_S1536_S_d0 h_S_)
      (constant (F := F) S_ .f32 0x44C00000#32))
    shapeCasts_S_S1

/-- The reference's result is the tail of ITS distance matrix. -/
theorem ref_result (x0 : (⟨S512x16384, .f32⟩ : BufTy).Contents (Elt F)) (x1 : (⟨S1536x3, .i32⟩ : BufTy).Contents (Elt F)) :
    val_main_v52 (F := F) x0 x1 = tail (val_main_v13 (F := F) x0) x1 := rfl

end Cert.ReferenceIdeal.TailSpec

end
-- ==== Proof.KerTail.lean ====
/-
  The kernel program's host operations after the region, read once: whatever the buffers hold when the region ends,
  the result buffer ends at the shared tail function of the distance-matrix buffer and the triplet array.
  The operations are the same text in both programs, so after composing them the two terms are one.
-/
import proofs.«168195_j14800457302034_1_alg».proof.Proof.Gen.KernelIdeal.Launch
import proofs.«168195_j14800457302034_1_alg».proof.Proof.TailSpec
import Idealize.ShloMosaic.Lib.StableHlo.Run

noncomputable section

namespace Cert.KernelIdeal.Tail

open Cert.KernelIdeal Cert.KernelIdeal.Gen Idealize.ShloMosaic Idealize.ShloMosaic.TcCoe Idealize.SL.Sem
  Idealize.ShloMosaic.StableHlo

variable {F : FTy → Type} [FloatOps F]

set_option maxRecDepth 8192 in
set_option maxHeartbeats 4000000 in
/-- From any buffer contents `W`: after the three stretches of host operations the result buffer holds the tail of
    `W`'s distance-matrix buffer and triplet array. -/
theorem after_tail (W : Valuation τ sig (Elt F)) :
    StableHlo.after (List.flatten [hostOps1, hostOps1_1, hostOps1_2]) W (Proc.devRef .tc main_v39)
      = Cert.ReferenceIdeal.TailSpec.tail (F := F) (W (Proc.devRef .tc main_v0)) (W (Proc.devRef .tc main_arg1)) := by
  simp only [hostOps1, hostOps1_1, hostOps1_2, List.flatten_cons, List.flatten_nil, List.append_nil, List.cons_append,
    List.nil_append]
  after_results_simp <;> rfl

end Cert.KernelIdeal.Tail

end
-- ==== Proof.KerRun.lean ====
/-
  The kernel program's run, read: the result ends at the shared tail of the squared-distance matrix of the feature
  array and the triplet array, and the two argument arrays end unchanged. The region leaves the distance matrix in its
  result array (the array step), the triplet array is no array of the region and no host operation writes it, and the
  host operations after the region are the shared tail of what the region left.
-/
import proofs.«168195_j14800457302034_1_alg».proof.Proof.KerArray
import proofs.«168195_j14800457302034_1_alg».proof.Proof.KerTail

noncomputable section

namespace Cert.KernelIdeal.Run

open Cert.KernelIdeal Cert.KernelIdeal.Gen Idealize.ShloMosaic Idealize.ShloMosaic.TcCoe Idealize.SL.Sem
open Idealize.ShloMosaic.Pipeline (Dat)
open Cert.KernelIdeal.Accum Cert.KernelIdeal.Arr Cert.DistSpec

variable (m : (ℓ : Loc nD τ sig) → Buf (Elt Ideal) ℓ) (ρ : Dev nD → PrngReg)

/-- The program's result as a function of the launch contents of its two arguments. -/
abbrev out (c : Dev nD) : Buf (Elt Ideal) ((c : Thread nD τ).loc main_v39) :=
  Cert.ReferenceIdeal.TailSpec.tail (F := Ideal) (dist (m ((c : Thread nD τ).loc main_arg0))) (m ((c : Thread nD τ).loc main_arg1))

/-- The host operations after the region, over what the region left, compute `out`. -/
theorem tail_eq (c : Dev nD) :
    Pipeline.afterTail₀ cfgs (dats m) 0 (V0 m) [hostOps1, hostOps1_1, hostOps1_2] c main_v39 = out m c := by
  unfold Pipeline.afterTail₀
  rw [Cert.KernelIdeal.Tail.after_tail]
  have hD : Pipeline.withArrays (cfgs 0).spec c (V0 m c) (fun w => (dats m 0 c).arrAt w (cfgs 0).N) (Proc.devRef .tc main_v0)
      = dist (m ((c : Thread nD τ).loc main_arg0)) :=
    (Pipeline.withArrays_arr spec0 launch0.win.arr_inj c _ _ 1).trans (final_o m c)
  have hT : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [hD, hT]

/-- Every weakly fair execution terminates with the result at `out` and the arguments unchanged. -/
theorem run : θ_run defs (onTc (τ := τ) (main (F := Ideal))) ⟨m, fun _ => 0, ρ⟩ fun r => ∀ c : Dev nD,
      r.2.mem ((c.tc : Thread nD τ).loc main_v39) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v39 (Pipeline.mem_restRefs_of main_v39 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.RefDist.lean ====
/-
  The reference's distance matrix is `dist` of the feature array, entry by entry: the row sums of squares are the
  inner products of a row with itself (the sum starts from the zero word), the matrix product with the transpose
  is the inner product of two rows, and the two are combined and clamped as `dist` says.
-/
import proofs.«168195_j14800457302034_1_alg».proof.Proof.Gen.ReferenceIdeal.Read
import proofs.«168195_j14800457302034_1_alg».proof.Proof.DistSpec

noncomputable section

namespace Cert.ReferenceIdeal.RefDist

open Cert.ReferenceIdeal Cert.ReferenceIdeal.Gen Cert.ReferenceIdeal.Read Idealize.ShloMosaic Idealize.ShloMosaic.TcCoe
  Idealize.SL.Sem Idealize.ShloMosaic.ValueIdx Cert.DistSpec

/-- A row's sum of squares is the row's inner product with itself. -/
theorem sq_apply (x0 : (⟨S512x16384, .f32⟩ : BufTy).Contents (Elt Ideal)) (i : Fin 512) :
    val_main_v1 (F := Ideal) x0 (ix1 i) = gram x0 i i := by
  rw [val_main_v1_apply]
  show Ideal.ofBits .f32 0x00000000#32 + ∑ k : Fin 16384, val_main_v0 (F := Ideal) x0 (idx_main_v1 (ix1 i) k) = _
  rw [Ideal.ofBits_zero_f32, zero_add]
  unfold gram
  refine Finset.sum_congr rfl fun k _ => ?_
  have e : idx_main_v1 (ix1 i) k = ix2 i k := funext fun a => Fin.ext (by
    match a with
    | ⟨0, _⟩ => rfl
    | ⟨1, _⟩ => rfl)
  rw [val_main_v0_apply, e]
  rfl

/-- The product with the transpose at `(i, j)` is the inner product of rows `i` and `j`. -/
theorem dot_apply (x0 : (⟨S512x16384, .f32⟩ : BufTy).Contents (Elt Ideal)) (i j : Fin 512) :
    val_main_v8 (F := Ideal) x0 (ix2 i j) = gram x0 i j := by
  rw [val_main_v8_apply]
  unfold gram
  refine Finset.sum_congr rfl fun k _ => ?_
  have el : lidx_main_v8 (ix2 i j) k = ix2 i k := funext fun a => Fin.ext (by
    match a with
    | ⟨0, _⟩ => rfl
    | ⟨1, _⟩ => rfl)
  have er : idx_main_v7 (ridx_main_v8 (ix2 i j) k) = ix2 j k := funext fun a => Fin.ext (by
    match a with
    | ⟨0, _⟩ => rfl
    | ⟨1, _⟩ => rfl)
  rw [val_main_v7_apply, el, er]

/-- The reference's distance matrix is `dist` of the feature array. -/
theorem ref_dist (x0 : (⟨S512x16384, .f32⟩ : BufTy).Contents (Elt Ideal)) :
    val_main_v13 (F := Ideal) x0 = dist x0 := by
  funext p
  obtain ⟨i, j, rfl⟩ : ∃ (i : Fin 512) (j : Fin 512), p = ix2 i j := ⟨p 0, p 1, eq_ix2 p⟩
  have e1 : idx_main_v2 (idx_main_v4 (ix2 i j)) = ix1 i := funext fun a => Fin.ext (by
    match a with
    | ⟨0, _⟩ => rfl)
  have e2 : idx_main_v3 (idx_main_v5 (ix2 i j)) = ix1 j := funext fun a => Fin.ext (by
    match a with
    | ⟨0, _⟩ => rfl)
  rw [val_main_v13_apply, val_main_v11_apply, val_main_v6_apply, val_main_v4_apply, val_main_v2_apply,
    val_main_v5_apply, val_main_v3_apply, val_main_v10_apply, e1, e2, sq_apply, sq_apply, dot_apply]
  rfl

end Cert.ReferenceIdeal.RefDist

end
-- ==== Proof.lean ====
/-
  The mean triplet loss over pairwise squared distances: a kernel that builds the 512 × 512 matrix of squared
  distances between the rows of a 512 × 16384 feature array tile by tile, against the plain formula.

  Both programs compute `D[i, j] = max ((‖xᵢ‖² + ‖xⱼ‖²) - 2·⟨xᵢ, xⱼ⟩) 0` and then apply the SAME host operations to
  `D` and the triplet array (two gathers, a difference, a softplus, a mean). They differ in how `D` is reached:

    the reference sums the squares of each row, multiplies the array with its transpose, and combines;

    the kernel walks eight tiles of 2048 columns, adding each tile's product with its own transpose into a block that
    starts at zero, and after the last tile reads the squared norms off the block's diagonal (the block masked by
    the indicator of `row = column`, summed along rows and along columns) before combining.

  On the extended reals addition is commutative and associative without any finiteness assumption, so the block after
  tile `n` holds the inner products over the first `2048·(n+1)` columns and after the eighth tile the full inner
  products; a masked row or column sum has one surviving term, the diagonal entry `⟨xᵢ, xᵢ⟩ = ‖xᵢ‖²`. Hence both
  matrices are the one function `DistSpec.dist` of the feature array, and the results are the one function
  `TailSpec.tail` of that matrix and the triplet array. The precondition (finite features) is not needed for this.

  The three frames are the generated frame runs (for the reference, its generated run with the result dropped); the
  idealization rewrote nothing, so `preserves` is trivial.
-/
import proofs.«168195_j14800457302034_1_alg».proof.Defs
import proofs.«168195_j14800457302034_1_alg».proof.Proof.Gen.Kernel
import proofs.«168195_j14800457302034_1_alg».proof.Proof.Gen.Kernel.Skeleton
import proofs.«168195_j14800457302034_1_alg».proof.Proof.Gen.Kernel.Launch
import proofs.«168195_j14800457302034_1_alg».proof.Proof.Gen.Kernel.Points
import proofs.«168195_j14800457302034_1_alg».proof.Proof.Gen.Kernel.Frame
import proofs.«168195_j14800457302034_1_alg».proof.Proof.Gen.KernelIdeal
import proofs.«168195_j14800457302034_1_alg».proof.Proof.Gen.KernelIdeal.Skeleton
import proofs.«168195_j14800457302034_1_alg».proof.Proof.Gen.KernelIdeal.Launch
import proofs.«168195_j14800457302034_1_alg».proof.Proof.Gen.KernelIdeal.Points
import proofs.«168195_j14800457302034_1_alg».proof.Proof.Gen.KernelIdeal.Frame
import proofs.«168195_j14800457302034_1_alg».proof.Proof.Gen.ReferenceIdeal
import proofs.«168195_j14800457302034_1_alg».proof.Proof.Gen.Pre_finite_inputs
import proofs.«168195_j14800457302034_1_alg».proof.Proof.Gen.ReferenceIdeal.Run
import proofs.«168195_j14800457302034_1_alg».proof.Proof.Gen.ReferenceIdeal.Read
import proofs.«168195_j14800457302034_1_alg».proof.Proof.KerRun
import proofs.«168195_j14800457302034_1_alg».proof.Proof.RefDist
import proofs.«168195_j14800457302034_1_alg».proof.Proof.TailSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result is the tail of `dist` of its feature array (its run, read), and the
    reference's is the tail of its own distance matrix, which is `dist` of a feature array that agrees. -/
theorem algebraic : Cert.algebraic_KernelIdeal_ReferenceIdeal := by
  intro m ρ m' ρ' _ hagree
  refine ⟨fun c => Cert.KernelIdeal.Run.out m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.TailSpec.ref_result,
    Cert.ReferenceIdeal.RefDist.ref_dist, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
